-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1600000 .f32) (main_arg1 : FVec F S100000x128 .f32) (main_arg2 : IVec S2x1600000 32) (main_arg3 : FVec F S128x128 .f32) (main_arg4 : FVec F S128 .f32) : IVec S_ 1 :=
  let main_v0 : FVec F S1600000 .f32 := Host.absf main_arg0
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1600000 : Shape := ⟨1, ![1600000]⟩
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩

abbrev nBuf : Space → Nat
  | .hbm => 29
  | .vmem => 6
  | .smem => 0
  | _ => 0

abbrev bufTy : (tb : Table) → Fin (tcTables nBuf tb) → BufTy
  | .hbm, ⟨0, _⟩ => ⟨S1600000, .f32⟩
  | .hbm, ⟨1, _⟩ => ⟨S100000x128, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S1x1600000, .i32⟩
  | .hbm, ⟨20, _⟩ => ⟨S1600000, .i32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S128x128, .f32⟩
  | .hbm, ⟨26, _⟩ => ⟨S128x128, .bf16⟩
  | .hbm, ⟨27, _⟩ => ⟨S1x128, .f32⟩
  | .hbm, ⟨28, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .bf16⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | _, _ => ⟨S1600000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  slices_S2x1600000_S1x1600000_0_0 : S2x1600000.Slices ![0, 0] S1x1600000
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v16) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1600000 : Shape := ⟨1, ![1600000]⟩
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S1600000, .f32⟩
  | .hbm, ⟨1, _⟩ => ⟨S100000x128, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S1x1600000, .i32⟩
  | .hbm, ⟨20, _⟩ => ⟨S1600000, .i32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S128x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | _, _ => ⟨S1600000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  slices_S2x1600000_S1x1600000_0_0 : S2x1600000.Slices ![0, 0] S1x1600000
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.BodyEntry.lean ====
/-
  One entry of what the kernel body stores.  The body loads a block x0 of 4000 rows of the aggregated messages, the
  transposed weight matrix x1 and the bias as one row x2, and stores  x0 · x1 + x2  (the product accumulated into a zero
  block, the row repeated down the 4000 rows).  Rounding the operands to a shorter format changes nothing over the
  extended reals, so the stored entry (p, j) is  Σ_k x0[p, k] · x1[k, j] + x2[0, j].
-/
import proofs.«127959_j4913442586878_2_alg».proof.Proof.Gen.KernelIdeal.Skeleton
import proofs.«127959_j4913442586878_2_alg».proof.Proof.LibRowOps
import Idealize.ShloMosaic.Lib.ValueLayout

noncomputable section

open scoped BigOperators

namespace Cert.KernelIdeal.Rows

open Cert.KernelIdeal Cert.KernelIdeal.Gen Idealize.ShloMosaic Idealize.ShloMosaic.ValueIdx Idealize.ShloMosaic.Pipeline

/-- The body's matrix product into the zero block, at (p, j): row p of the left operand against column j of the right. -/
theorem matmul_entry (A : FVec Ideal S4000x128 .bf16) (B : FVec Ideal S128x128 .bf16) (p : Fin 4000) (j : Fin 128) :
    matmul dot_S4000x128_S128x128_S4000x128_1_0_0_1_n_n none A B (constant (F := Ideal) S4000x128 .f32 0x00000000#32) (ix2 p j)
      = ∑ k : Fin 128, A (ix2 p k) * B (ix2 k j) := by
  have hD : dot_S4000x128_S128x128_S4000x128_1_0_0_1_n_n = DotDims.plain 4000 128 128 :=
    Cert.RowLib.dotDims_eq_plain _ rfl rfl rfl rfl rfl rfl
  rw [hD]
  exact Cert.RowLib.matmul_plain_zero_ix2 none A B p j

/-- The stored entry (p, j): the product's entry plus the bias row's entry j. -/
theorem pay_entry (x0 : FVec Ideal S4000x128 .f32) (x1 : FVec Ideal S128x128 .bf16) (x2 : FVec Ideal S1x128 .f32)
    (p : Fin 4000) (j : Fin 128) :
    k0_pay1 (F := Ideal) x0 x1 x2 (ix2 p j) = (∑ k : Fin 128, x0 (ix2 p k) * x1 (ix2 k j)) + x2 (ix2 (0 : Fin 1) j) := by
  unfold k0_pay1
  simp only [shapeCast_self]
  refine (addf_apply _ _ _).trans ?_
  exact congrArg₂ (· + ·) ((matmul_entry _ _ p j).trans rfl) (broadcastTo_1b_ab_apply _ _ p j)

end Cert.KernelIdeal.Rows

end
-- ==== Proof.Affine.lean ====
/-
  The affine layer on rows, over the extended reals.  For a matrix `a` of 100000 rows of length 128, a square weight
  matrix `w` (one row per output feature) and a bias vector `b`, the layer's entry (r, j) is the inner product of row r
  of `a` with row j of `w`, plus `b j`:   y[r, j] = Σ_k a[r, k] · w[j, k] + b[j].
  Entry (r, j) depends on ONE row of `a`, so the layer can be computed a block of rows at a time; and the sum is a finite
  sum in a commutative monoid, so no order of accumulation and no finiteness of the entries is involved.
  Nothing here mentions a program.
-/
import Idealize.ShloMosaic.PureOps.Ideal
import Idealize.ShloMosaic.Lib.ValueIdx

noncomputable section

open scoped BigOperators

namespace Cert.Affine

open Idealize.ShloMosaic Idealize.ShloMosaic.ValueIdx

/-- y[r, j] = Σ_k a[r, k] · w[j, k] + b[j]. -/
def affine (a : FVec Ideal ⟨2, ![100000, 128]⟩ .f32) (w : FVec Ideal ⟨2, ![128, 128]⟩ .f32) (b : FVec Ideal ⟨1, ![128]⟩ .f32) :
    FVec Ideal ⟨2, ![100000, 128]⟩ .f32 :=
  fun i => (∑ k : Fin 128, a (ix2 (n0 := 100000) (n1 := 128) (i 0) k) * w (ix2 (n0 := 128) (n1 := 128) (i 1) k))
    + b (ix1 (n := 128) (i 1))

/-- The layer at the entry in row r, column j. -/
theorem affine_apply (a : FVec Ideal ⟨2, ![100000, 128]⟩ .f32) (w : FVec Ideal ⟨2, ![128, 128]⟩ .f32) (b : FVec Ideal ⟨1, ![128]⟩ .f32)
    (r : Fin 100000) (j : Fin 128) :
    affine a w b (ix2 r j) = (∑ k : Fin 128, a (ix2 r k) * w (ix2 j k)) + b (ix1 j) := rfl

end Cert.Affine

end
-- ==== Proof.BlockEntry.lean ====
/-
  A block of rows of the affine layer.  Let E place a 4000-row block inside the 100000-row array: row p of the block is
  row s + p of the array, column for column.  If the body is given the block  y' ↦ A (E y')  of the aggregated messages A,
  a right operand WT with WT[k, j] = W[j, k] and a bias row BR with BR[0, j] = B[j], then what it stores at the block's
  index y is the affine layer of the whole arrays at E y: entry (r, j) of the layer needs only row r of A, and the block's
  row p is A's row r = s + p.
-/
import proofs.«127959_j4913442586878_2_alg».proof.Proof.BodyEntry
import proofs.«127959_j4913442586878_2_alg».proof.Proof.Affine

noncomputable section

open scoped BigOperators

namespace Cert.KernelIdeal.Rows

open Cert.KernelIdeal Cert.KernelIdeal.Gen Idealize.ShloMosaic Idealize.ShloMosaic.ValueIdx Cert.Affine

/-- One stored entry is one entry of the layer, once each loaded entry it uses is the whole array's entry it stands for:
    row p of the block is row r of the aggregated messages; the right operand at (k, q) is the weight at (q, k); the
    bias row at (0, q) is the bias at q. -/
theorem entry_of_blocks (x0 : FVec Ideal S4000x128 .f32) (x1 : FVec Ideal S128x128 .bf16) (x2 : FVec Ideal S1x128 .f32)
    (a : FVec Ideal S100000x128 .f32) (w : FVec Ideal S128x128 .f32) (b : FVec Ideal S128 .f32)
    (p : Fin 4000) (q : Fin 128) (r : Fin 100000)
    (h0 : ∀ k : Fin 128, x0 (ix2 p k) = a (ix2 r k))
    (h1 : ∀ k : Fin 128, x1 (ix2 k q) = w (ix2 q k))
    (h2 : x2 (ix2 (0 : Fin 1) q) = b (ix1 q)) :
    k0_pay1 (F := Ideal) x0 x1 x2 (ix2 p q) = affine a w b (ix2 r q) := by
  rw [pay_entry, affine_apply, h2]
  exact congrArg (· + b (ix1 q)) (Finset.sum_congr rfl fun k _ => by rw [h0 k, h1 k])

/-- The body on a block of rows placed by E at row offset s stores, at y, the layer of the whole arrays at E y. -/
theorem entry_rows (A : FVec Ideal S100000x128 .f32) (WT : FVec Ideal S128x128 .bf16) (BR : FVec Ideal S1x128 .f32)
    (W : FVec Ideal S128x128 .f32) (B : FVec Ideal S128 .f32) (E : S4000x128.Idx → S100000x128.Idx) (s : Nat)
    (hE0 : ∀ y : S4000x128.Idx, (E y 0).val = s + (y 0).val) (hE1 : ∀ y : S4000x128.Idx, (E y 1).val = (y 1).val)
    (hW : ∀ k j : Fin 128, WT (ix2 k j) = W (ix2 j k)) (hB : ∀ j : Fin 128, BR (ix2 (0 : Fin 1) j) = B (ix1 j))
    (y : S4000x128.Idx) :
    k0_pay1 (F := Ideal) (fun y' => A (E y')) WT BR y = affine A W B (E y) := by
  obtain ⟨p, q, rfl⟩ : ∃ (p : Fin 4000) (q : Fin 128), y = ix2 p q := ⟨y 0, y 1, eq_ix2 y⟩
  obtain ⟨r, j, hi⟩ : ∃ (r : Fin 100000) (j : Fin 128), E (ix2 p q) = ix2 r j := ⟨E (ix2 p q) 0, E (ix2 p q) 1, eq_ix2 _⟩
  have hr : r.val = s + p.val := by
    have h := hE0 (ix2 p q); rw [hi] at h; exact h
  have hj : j = q := Fin.ext (by have h := hE1 (ix2 p q); rw [hi] at h; exact h)
  subst hj
  rw [hi]
  refine entry_of_blocks _ WT BR A W B p j r (fun k => ?_) (fun k => hW k j) (hB j)
  show A (E (ix2 p k)) = A (ix2 r k)
  refine congrArg A (funext fun a => Fin.ext ?_)
  match a with
  | ⟨0, _⟩ => show (E (ix2 p k) 0).val = r.val; rw [hE0 (ix2 p k), hr]
  | ⟨1, _⟩ => show (E (ix2 p k) 1).val = k.val; rw [hE1 (ix2 p k)]

end Cert.KernelIdeal.Rows

end
-- ==== Proof.IndexMaps.lean ====
/-
  The pipeline's printed index maps, decided once over the grid's 25 points: at point t the window of aggregated
  messages and the result window are both on block t of their arrays (rows 4000·t … 4000·t + 3999, all columns), and the
  weight and bias windows stay on their one block, which is their whole array.
-/
import proofs.«127959_j4913442586878_2_alg».proof.Proof.Gen.KernelIdeal.Launch

noncomputable section

open scoped BigOperators

namespace Cert.KernelIdeal.Rows

open Cert.KernelIdeal Cert.KernelIdeal.Gen Idealize.ShloMosaic

theorem zero_offsets : (![0, 0] : Fin 2 → Nat) = fun _ => 0 := funext fun a => by fin_cases a <;> rfl

/-- The block index of each window at each of the 25 points, per axis. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

end Cert.KernelIdeal.Rows

end
-- ==== Proof.BlockReads.lean ====
/-
  The windows' blocks at a point, read off ARBITRARY array contents.  At point t the window of aggregated messages and
  the result window are both on block t, so the block of an array A of aggregated messages is A read at the places where the
  result block's own indices land (row 4000·t + y₀, column y₁); the weight window's and the bias window's blocks are their
  whole arrays.
-/
import proofs.«127959_j4913442586878_2_alg».proof.Proof.Gen.KernelIdeal.Launch
import proofs.«127959_j4913442586878_2_alg».proof.Proof.IndexMaps
import Idealize.ShloMosaic.PureOps.Ideal

noncomputable section

open scoped BigOperators

namespace Cert.KernelIdeal.Rows

open Cert.KernelIdeal Cert.KernelIdeal.Gen Idealize.ShloMosaic Idealize.ShloMosaic.TcCoe Idealize.SL.Sem
open Idealize.ShloMosaic.Pipeline

/-- Where the result block's index y lands in the result array at point t: row 4000·t + y₀ … -/
theorem out_row (t : Fin cfg0.N) (y : S4000x128.Idx) : ((((cfg0.win 3).blk t).view.emb y) 0).val = t.val * 4000 + (y 0).val := by
  obtain ⟨-, -, -, -, -, -, e30, -⟩ := index_maps t
  show win0_3.index t (0 : Fin 2) * 4000 + 1 * (y 0).val = _
  omega

/-- … column y₁. -/
theorem out_col (t : Fin cfg0.N) (y : S4000x128.Idx) : ((((cfg0.win 3).blk t).view.emb y) 1).val = (y 1).val := by
  obtain ⟨-, -, -, -, -, -, -, e31⟩ := index_maps t
  show win0_3.index t (1 : Fin 2) * 128 + 1 * (y 1).val = _
  omega

/-- The block at point t of an array of aggregated messages is the array read at the result block's places. -/
theorem read_rows (t : Fin cfg0.N) (A : FVec Ideal S100000x128 .f32) :
    ((cfg0.win 0).blk t).view.read (Elt Ideal) A = fun y : S4000x128.Idx => A (((cfg0.win 3).blk t).view.emb y) := by
  obtain ⟨e00, e01, -, -, -, -, e30, e31⟩ := index_maps t
  funext y
  show A (((cfg0.win 0).blk t).view.emb y) = A (((cfg0.win 3).blk t).view.emb y)
  refine congrArg A (funext fun a => Fin.ext ?_)
  match a with
  | ⟨0, _⟩ => show win0_0.index t (0 : Fin 2) * 4000 + 1 * (y 0).val = win0_3.index t (0 : Fin 2) * 4000 + 1 * (y 0).val; omega
  | ⟨1, _⟩ => show win0_0.index t (1 : Fin 2) * 128 + 1 * (y 1).val = win0_3.index t (1 : Fin 2) * 128 + 1 * (y 1).val; omega

/-- The weight window's block at every point is the whole array. -/
theorem read_weight (t : Fin cfg0.N) (WT : FVec Ideal S128x128 .bf16) : ((cfg0.win 1).blk t).view.read (Elt Ideal) WT = WT := by
  obtain ⟨-, -, e10, e11, -, -, -, -⟩ := index_maps t
  funext y
  show WT (((cfg0.win 1).blk t).view.emb y) = WT y
  refine congrArg WT (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias window's block at every point is the whole one-row array. -/
theorem read_bias (t : Fin cfg0.N) (BR : FVec Ideal S1x128 .f32) : ((cfg0.win 2).blk t).view.read (Elt Ideal) BR = BR := by
  obtain ⟨-, -, -, -, e20, e21, -, -⟩ := index_maps t
  funext y
  show BR (((cfg0.win 2).blk t).view.emb y) = BR y
  refine congrArg BR (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

end Cert.KernelIdeal.Rows

end
-- ==== Proof.EntryArrays.lean ====
/-
  What the kernel's three input arrays hold when the pipelined region is entered.  The host lines before the region are:
  the aggregated messages (the gather of the hidden rows, scaled by the probabilities and scatter-added into the source
  nodes' rows) — line for line the chain the reference runs, and carried here as the reference's own unopened term —; the
  weight matrix transposed and rounded to the shorter format (the identity over the extended reals), so its entry (k, j) is
  w[j, k]; and the bias laid out as one row, so its entry (0, j) is b[j].
-/
import proofs.«127959_j4913442586878_2_alg».proof.Proof.Gen.KernelIdeal.Frame
import proofs.«127959_j4913442586878_2_alg».proof.Proof.Gen.ReferenceIdeal.Read
import Idealize.ShloMosaic.Lib.ValueLayout
import Idealize.ShloMosaic.Lib.StableHlo.Run

noncomputable section

namespace Cert.KernelIdeal.Rows

open Cert.KernelIdeal Cert.KernelIdeal.Gen Idealize.ShloMosaic Idealize.ShloMosaic.TcCoe Idealize.SL.Sem
open Idealize.ShloMosaic.ValueIdx Idealize.ShloMosaic.Pipeline Idealize.ShloMosaic.StableHlo

variable (m : (ℓ : Loc nD τ sig) → Buf (Elt Ideal) ℓ)

/-- The aggregated messages the region finds are the reference's aggregated messages of the same three arguments. -/
theorem agg_eq (c : Dev nD) :
    (V m c main_v16 : S100000x128.Idx → EReal)
      = Cert.ReferenceIdeal.Read.val_main_v16 (F := Ideal) (m ((c : Thread nD τ).loc main_arg0))
          (m ((c : Thread nD τ).loc main_arg1)) (m ((c : Thread nD τ).loc main_arg2)) := by
  show StableHlo.after hostOps0 (fun b => m (c, b)) (Proc.devRef .tc main_v16) = _
  after_results <;> rfl

/-- The right operand the region finds, at (k, j), is the weight matrix at (j, k). -/
theorem wT_apply (c : Dev nD) (k j : Fin 128) :
    (V m c main_v18 : S128x128.Idx → EReal) (ix2 k j) = m ((c : Thread nD τ).loc main_arg3) (ix2 j k) := by
  have e : (V m c main_v18 : S128x128.Idx → EReal)
      = (truncf .bf16 (transpose S128x128 [1, 0] (m ((c : Thread nD τ).loc main_arg3)) transposes_S128x128_S128x128_1_0) bitsLt_bf16_f32 : FVec Ideal S128x128 .bf16) := by
    unfold V
    after_results <;> rfl
  rw [e]
  exact transpose_ix2_apply (m ((c : Thread nD τ).loc main_arg3)) transposes_S128x128_S128x128_1_0 k j

/-- The bias row the region finds, at (0, j), is the bias at j. -/
theorem brow_apply (c : Dev nD) (j : Fin 128) :
    (V m c main_v19 : S1x128.Idx → EReal) (ix2 (0 : Fin 1) j) = m ((c : Thread nD τ).loc main_arg4) (ix1 j) := by
  have e : (V m c main_v19 : S1x128.Idx → EReal)
      = (shapeCast S1x128 (m ((c : Thread nD τ).loc main_arg4)) shapeCasts_S128_S1x128 : FVec Ideal S1x128 .f32) := by
    unfold V
    after_results <;> rfl
  rw [e]
  exact shapeCast_a_1a_apply (m ((c : Thread nD τ).loc main_arg4)) shapeCasts_S128_S1x128 0 j

end Cert.KernelIdeal.Rows

end
-- ==== Proof.Written.lean ====
/-
  What point t writes back.  The body's one store through the whole block leaves its payload; its three loads through the
  whole blocks read the blocks; the block of aggregated messages is the array read at the result block's places and the
  other two blocks are their whole arrays; so, entry by entry, what is written back is block t of the affine layer — for
  ANY contents A, WT, BR of the three arrays with WT the weight matrix transposed and BR the bias as one row.  The arrays
  the region finds are one instance.
-/
import proofs.«127959_j4913442586878_2_alg».proof.Proof.Gen.KernelIdeal.Value
import proofs.«127959_j4913442586878_2_alg».proof.Proof.BlockEntry
import proofs.«127959_j4913442586878_2_alg».proof.Proof.BlockReads
import proofs.«127959_j4913442586878_2_alg».proof.Proof.EntryArrays

noncomputable section

open scoped BigOperators

namespace Cert.KernelIdeal.Rows

open Cert.KernelIdeal Cert.KernelIdeal.Gen Idealize.ShloMosaic Idealize.ShloMosaic.TcCoe Idealize.SL.Sem
open Idealize.ShloMosaic.ValueIdx Idealize.ShloMosaic.Pipeline Cert.Affine
open Idealize.ShloMosaic.Pipeline (Dat)

/-- The body's result on the blocks at point t of arrays A, WT, BR, cut to the result window, is block t of the layer. -/
theorem written_block (t : Fin cfg0.N) (A : FVec Ideal S100000x128 .f32) (WT : FVec Ideal S128x128 .bf16)
    (BR : FVec Ideal S1x128 .f32) (W : FVec Ideal S128x128 .f32) (B : FVec Ideal S128 .f32)
    (hW : ∀ k j : Fin 128, WT (ix2 k j) = W (ix2 j k)) (hB : ∀ j : Fin 128, BR (ix2 (0 : Fin 1) j) = B (ix1 j)) :
    (cfg0.win 3).cut (grid0.coords t)
        (out0_3 (((cfg0.win 0).blk t).view.read (Elt Ideal) A) (((cfg0.win 1).blk t).view.read (Elt Ideal) WT)
          (((cfg0.win 2).blk t).view.read (Elt Ideal) BR))
      = ((cfg0.win 3).blk t).view.read (Elt Ideal) (affine A W B) := by
  unfold out0_3
  rw [View.canon_unit_zero zero_offsets]
  simp only [View.ld_unit_zero (S := S4000x128) zero_offsets, View.ld_unit_zero (S := S128x128) zero_offsets,
    View.ld_unit_zero (S := S1x128) zero_offsets]
  rw [read_rows t A, read_weight t WT, read_bias t BR]
  funext y
  show k0_pay1 (F := Ideal) (fun y' : S4000x128.Idx => A (((cfg0.win 3).blk t).view.emb y')) WT BR y
    = affine A W B (((cfg0.win 3).blk t).view.emb y)
  exact entry_rows A WT BR W B (fun y' => ((cfg0.win 3).blk t).view.emb y') (t.val * 4000) (out_row t) (out_col t) hW hB y

variable (m : (ℓ : Loc nD τ sig) → Buf (Elt Ideal) ℓ)

/-- The layer of the arrays the region finds: the aggregated messages, the weight matrix and the bias. -/
abbrev layer (c : Dev nD) : S100000x128.Idx → EReal :=
  affine (V m c main_v16) (m ((c : Thread nD τ).loc main_arg3)) (m ((c : Thread nD τ).loc main_arg4))

/-- What point t writes back is block t of the layer of the arrays the region finds. -/
theorem flushed_eq (c : Dev nD) (t : Fin cfg0.N) :
    (dats m 0 c).flushed 3 t = ((cfg0.win 3).blk t).view.read (Elt Ideal) (layer m c) :=
  (Cert.KernelIdeal.Value.flushed3 m c t).trans
    (written_block t (V m c main_v16) (V m c main_v18) (V m c main_v19) (m ((c : Thread nD τ).loc main_arg3))
      (m ((c : Thread nD τ).loc main_arg4)) (wT_apply m c) (brow_apply m c))

end Cert.KernelIdeal.Rows

end
-- ==== Proof.WholeArray.lean ====
/-
  From blocks to the whole array.  The 25 result blocks are rows 4000·t … 4000·t + 3999, all 128 columns: row r lies in
  block r / 4000, so every index of the result array is in some point's block.  Each point writes back its block of the
  affine layer, so after the run the result array is the layer of the arrays the region found; and the aggregated messages
  it found are the reference's aggregated messages of the arguments.
-/
import proofs.«127959_j4913442586878_2_alg».proof.Proof.Written

noncomputable section

open scoped BigOperators

namespace Cert.KernelIdeal.Rows

open Cert.KernelIdeal Cert.KernelIdeal.Gen Idealize.ShloMosaic Idealize.ShloMosaic.TcCoe Idealize.SL.Sem
open Idealize.ShloMosaic.ValueIdx Idealize.ShloMosaic.Pipeline Cert.Affine
open Idealize.ShloMosaic.Pipeline (Dat)

variable (m : (ℓ : Loc nD τ sig) → Buf (Elt Ideal) ℓ) (ρ : Dev nD → PrngReg)

/-- An index of the result array is in point t's block iff each coordinate is in the block's range on its axis. -/
theorem mem_block (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v20).slice (win0_3.rect t)).set ↔ _
  rw [View.set_slice_whole, Rect.mem_set_unit]
  exact Iff.rfl

/-- Every index of the result array is in some point's block: row r is in block r / 4000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, lt_of_lt_of_eq (by omega : (i 0).val / 4000 < 25) N_0.symm⟩, rfl⟩
  obtain ⟨-, -, -, -, -, -, e30, e31⟩ := index_maps t
  refine ⟨t, flush0_3 t, ?_⟩
  rw [mem_block]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-- After the run the result array is the layer of the arrays the region found. -/
theorem final (c : Dev nD) : (dats m 0 c).arrAt 3 cfg0.N = layer m c :=
  (dats m 0 c).arrAt_eq_of_cover 3 (layer m c) (fun t _ => flushed_eq m c t) covered

/-- The kernel's run: it terminates with the result array at the affine layer of the reference's aggregated messages of
    the arguments, the weight matrix and the bias, and the arguments unchanged. -/
theorem run : θ_run defs (onTc (τ := τ) (main (F := Ideal))) ⟨m, fun _ => 0, ρ⟩ fun r => ∀ c : Dev nD,
      r.2.mem ((c : Thread nD τ).loc main_v20)
        = affine (Cert.ReferenceIdeal.Read.val_main_v16 (F := Ideal) (m ((c : Thread nD τ).loc main_arg0))
            (m ((c : Thread nD τ).loc main_arg1)) (m ((c : Thread nD τ).loc main_arg2)))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans
      (congrArg (fun a => affine a (m ((c : Thread nD τ).loc main_arg3)) (m ((c : Thread nD τ).loc main_arg4))) (agg_eq m c))), (h c).2⟩)
    (Cert.KernelIdeal.Value.run_blocks m ρ)

end Cert.KernelIdeal.Rows

end
-- ==== Proof.RefAffine.lean ====
/-
  The reference computes the affine layer of its aggregated messages.  Its last four stages are: the weight matrix
  transposed, the product of the aggregated messages with it (entry (r, j) = Σ_k agg[r, k] · wT[k, j], and wT[k, j] = w[j, k]),
  the bias broadcast to a row and then down the rows, and the sum of the two.  The aggregated messages themselves (a
  gather, a scaling and a scatter-add) are carried as one unopened term.
-/
import proofs.«127959_j4913442586878_2_alg».proof.Proof.Gen.ReferenceIdeal.Read
import proofs.«127959_j4913442586878_2_alg».proof.Proof.Affine

noncomputable section

open scoped BigOperators

namespace Cert.ReferenceIdeal.RefValue

open Cert.ReferenceIdeal Cert.ReferenceIdeal.Read Idealize.ShloMosaic Idealize.ShloMosaic.ValueIdx Cert.Affine

/-- The reference's result is the affine layer of its aggregated messages, the weight matrix and the bias. -/
theorem result_eq (x0 : (⟨S1600000, .f32⟩ : BufTy).Contents (Elt Ideal)) (x1 : (⟨S100000x128, .f32⟩ : BufTy).Contents (Elt Ideal))
    (x2 : (⟨S2x1600000, .i32⟩ : BufTy).Contents (Elt Ideal)) (x3 : (⟨S128x128, .f32⟩ : BufTy).Contents (Elt Ideal))
    (x4 : (⟨S128, .f32⟩ : BufTy).Contents (Elt Ideal)) :
    val_main_v21 (F := Ideal) x0 x1 x2 x3 x4 = affine (val_main_v16 (F := Ideal) x0 x1 x2) x3 x4 := by
  funext i
  obtain ⟨r, j, rfl⟩ : ∃ (r : Fin 100000) (j : Fin 128), i = ix2 r j := ⟨i 0, i 1, eq_ix2 i⟩
  have el : ∀ k : Fin 128, lidx_main_v18 (ix2 r j) k = ix2 r k := fun k => funext fun a => Fin.ext (by
    match a with
    | ⟨0, _⟩ => rfl
    | ⟨1, _⟩ => rfl)
  have er : ∀ k : Fin 128, idx_main_v17 (ridx_main_v18 (ix2 r j) k) = ix2 j k := fun k => funext fun a => Fin.ext (by
    match a with
    | ⟨0, _⟩ => rfl
    | ⟨1, _⟩ => rfl)
  have eb : idx_main_v19 (idx_main_v20 (ix2 r j)) = ix1 j := funext fun a => Fin.ext (by
    match a with
    | ⟨0, _⟩ => rfl)
  rw [val_main_v21_apply, val_main_v18_apply, val_main_v20_apply, val_main_v19_apply, affine_apply, eb]
  show (∑ k : Fin 128, _) + _ = _
  refine congrArg (· + x4 (ix1 j)) (Finset.sum_congr rfl fun k _ => ?_)
  rw [val_main_v17_apply, el, er]

end Cert.ReferenceIdeal.RefValue

end
-- ==== Proof.lean ====
/-
  The kernel against its reference, over the extended reals.  Both programs first form the same array of aggregated
  messages — each edge's target-node hidden row, scaled by the edge's probability, added into the row of the edge's source
  node — by the same host lines, and then apply one affine layer to it:  y[r, j] = Σ_k agg[r, k] · w[j, k] + b[j].
  The reference does that with one whole matrix product against the transposed weight matrix and a broadcast bias; the
  kernel does it 4000 rows at a time, 25 blocks, each block's product accumulated into zero, after rounding the operands to
  a shorter format, which over the extended reals changes nothing.  Entry (r, j) of the layer needs only row r of the
  aggregated messages, the 25 blocks tile the 100000 rows, and both sides spell the entry as the same finite sum plus the
  same bias entry: so the two results are equal element by element, whatever the inputs (the finiteness of the inputs is
  not used: a finite sum over the extended reals does not depend on the order of its terms).
  Each program also runs to the end without a fault and leaves its arguments as they were; the idealized kernel is the
  kernel's own text read over the extended reals (no line was rewritten), so there is nothing to preserve.
-/
import proofs.«127959_j4913442586878_2_alg».proof.Defs
import proofs.«127959_j4913442586878_2_alg».proof.Proof.Gen.Kernel
import proofs.«127959_j4913442586878_2_alg».proof.Proof.Gen.Kernel.Skeleton
import proofs.«127959_j4913442586878_2_alg».proof.Proof.Gen.Kernel.Launch
import proofs.«127959_j4913442586878_2_alg».proof.Proof.Gen.Kernel.Points
import proofs.«127959_j4913442586878_2_alg».proof.Proof.Gen.Kernel.Frame
import proofs.«127959_j4913442586878_2_alg».proof.Proof.Gen.KernelIdeal
import proofs.«127959_j4913442586878_2_alg».proof.Proof.Gen.KernelIdeal.Skeleton
import proofs.«127959_j4913442586878_2_alg».proof.Proof.Gen.KernelIdeal.Launch
import proofs.«127959_j4913442586878_2_alg».proof.Proof.Gen.KernelIdeal.Points
import proofs.«127959_j4913442586878_2_alg».proof.Proof.Gen.KernelIdeal.Frame
import proofs.«127959_j4913442586878_2_alg».proof.Proof.Gen.ReferenceIdeal
import proofs.«127959_j4913442586878_2_alg».proof.Proof.Gen.KernelIdeal.Value
import proofs.«127959_j4913442586878_2_alg».proof.Proof.Gen.ReferenceIdeal.Run
import proofs.«127959_j4913442586878_2_alg».proof.Proof.Gen.ReferenceIdeal.Read
import proofs.«127959_j4913442586878_2_alg».proof.Proof.Gen.Pre_finite_inputs
import proofs.«127959_j4913442586878_2_alg».proof.Proof.WholeArray
import proofs.«127959_j4913442586878_2_alg».proof.Proof.RefAffine
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No line of the kernel was rewritten when it was idealized. -/
theorem preserves : Cert.preserves_Kernel_KernelIdeal := trivial

/-- From memories that agree on the arguments, the kernel's result array and the reference's both end at the affine
    layer of the aggregated messages of the arguments, the weight matrix and the bias. -/
theorem algebraic : Cert.algebraic_KernelIdeal_ReferenceIdeal := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
